-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S256x128 : Shape := ⟨2, ![256, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S200000x128 .f32) (main_arg1 : FVec F S256x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S200000x128 : Shape := ⟨2, ![200000, 128]⟩
abbrev S256x128 : Shape := ⟨2, ![256, 128]⟩
abbrev S_ : Shape := ⟨0, ![]⟩
abbrev S256 : Shape := ⟨1, ![256]⟩
abbrev S256x1 : Shape := ⟨2, ![256, 1]⟩
abbrev S1x256 : Shape := ⟨2, ![1, 256]⟩
abbrev S200000x256 : Shape := ⟨2, ![200000, 256]⟩
abbrev S8000x128 : Shape := ⟨2, ![8000, 128]⟩
abbrev S8000x256 : Shape := ⟨2, ![8000, 256]⟩
abbrev S8000 : Shape := ⟨1, ![8000]⟩
abbrev S8000x1 : Shape := ⟨2, ![8000, 1]⟩

abbrev nBuf : Space → Nat
  | .hbm => 8
  | .vmem => 6
  | .smem => 0
  | _ => 0

abbrev bufTy : (tb : Table) → Fin (tcTables nBuf tb) → BufTy
  | .hbm, ⟨0, _⟩ => ⟨S200000x128, .f32⟩
  | .hbm, ⟨1, _⟩ => ⟨S256x128, .f32⟩
  | .hbm, ⟨2, _⟩ => ⟨S256x128, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S200000x256, .f32⟩
  | .local _ .vmem, ⟨0, _⟩ => ⟨S8000x128, .f32⟩
  | .local _ .vmem, ⟨1, _⟩ => ⟨S8000x128, .f32⟩
  | .local _ .vmem, ⟨2, _⟩ => ⟨S256x128, .f32⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x128_S256_d1 : S256x128.ReducesTo [1] S256
  h_S_ : 0 < S_.numel
  bcast_S256_S256x1_0 : S256.BroadcastsInDim S256x1 (![0] : Fin 1 → Fin S256x1.rank)
  transposes_S256x1_S1x256_1_0 : S256x1.Transposes [1, 0] S1x256
  inb_S8000x128_S8000x128_0_0 : ∀ a, (![0, 0] : Fin 2 → Nat) a + S8000x128.size a ≤ S8000x128.size a
  h_S8000x128 : 0 < S8000x128.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S8000x128_S8000 : S8000x128.Reduces [1] S8000
  shapeCasts_S8000_S8000x1 : S8000.ShapeCasts S8000x1
  bitsLt_bf16_f32 : FTy.bits .bf16 < FTy.bits .f32
  broadcasts_S8000x1_S8000x256 : S8000x1.Broadcasts S8000x256
  broadcasts_S1x256_S8000x256 : S1x256.Broadcasts S8000x256
  reduces_S8000x256_S8000 : S8000x256.Reduces [1] S8000
  inb_S8000x256_S8000x256_0_0 : ∀ a, (![0, 0] : Fin 2 → Nat) a + S8000x256.size a ≤ S8000x256.size a
  h_S8000x256 : 0 < S8000x256.numel
  dot_S8000x128_S256x128_S8000x256_1_1_0_0_n_n_wf : DotDims.WF S8000x128 S256x128 S8000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S200000x256.size a
  hwx0_3 : ∀ i : grid0.Coords, EltTy.bits .f32 = 32 ∨ (Rect.block (s := S200000x256) S8000x256.size (cc0_transform_3 i) (hinb0_3 i)).WholeWords (EltTy.packing .f32)

variable [Facts₀]

def dot_S8000x128_S256x128_S8000x256_1_1_0_0_n_n : DotDims S8000x128 S256x128 S8000x256 where
  lhsContracting := [1]
  rhsContracting := [1]
  lhsNonContracting := [0]
  rhsNonContracting := [0]
  lhsBatch := []
  rhsBatch := []
  wf := dot_S8000x128_S256x128_S8000x256_1_1_0_0_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x128 : Shape := ⟨2, ![200000, 128]⟩
abbrev S256x128 : Shape := ⟨2, ![256, 128]⟩
abbrev S_ : Shape := ⟨0, ![]⟩
abbrev S200000 : Shape := ⟨1, ![200000]⟩
abbrev S200000x1 : Shape := ⟨2, ![200000, 1]⟩
abbrev S256 : Shape := ⟨1, ![256]⟩
abbrev S1x256 : Shape := ⟨2, ![1, 256]⟩
abbrev S128x256 : Shape := ⟨2, ![128, 256]⟩
abbrev S200000x256 : Shape := ⟨2, ![200000, 256]⟩

abbrev nBuf : Space → Nat
  | .hbm => 39
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S256x128, .f32⟩
  | .hbm, ⟨2, _⟩ => ⟨S200000x128, .f32⟩
  | .hbm, ⟨3, _⟩ => ⟨S_, .f32⟩
  | .hbm, ⟨4, _⟩ => ⟨S200000, .f32⟩
  | .hbm, ⟨5, _⟩ => ⟨S200000x1, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S128x256, .f32⟩
  | .hbm, ⟨11, _⟩ => ⟨S200000x256, .f32⟩
  | .hbm, ⟨12, _⟩ => ⟨S200000x256, .f32⟩
  | .hbm, ⟨13, _⟩ => ⟨S200000x256, .f32⟩
  | .hbm, ⟨14, _⟩ => ⟨S200000x256, .f32⟩
  | .hbm, ⟨15, _⟩ => ⟨S_, .f32⟩
  | .hbm, ⟨16, _⟩ => ⟨S200000x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S_, .f32⟩
  | .hbm, ⟨29, _⟩ => ⟨S200000x256, .f32⟩
  | .hbm, ⟨30, _⟩ => ⟨S200000x256, .f32⟩
  | .hbm, ⟨31, _⟩ => ⟨S_, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000, .f32⟩
  | .hbm, ⟨36, _⟩ => ⟨S200000x1, .f32⟩
  | .hbm, ⟨37, _⟩ => ⟨S200000x256, .f32⟩
  | .hbm, ⟨38, _⟩ => ⟨S200000x256, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S200000x128_S200000_d1 : S200000x128.ReducesTo [1] S200000
  h_S_ : 0 < S_.numel
  bcast_S200000_S200000x1_0 : S200000.BroadcastsInDim S200000x1 (![0] : Fin 1 → Fin S200000x1.rank)
  reducesTo_S256x128_S256_d1 : S256x128.ReducesTo [1] S256
  bcast_S256_S1x256_1 : S256.BroadcastsInDim S1x256 (![1] : Fin 1 → Fin S1x256.rank)
  transposes_S256x128_S128x256_1_0 : S256x128.Transposes [1, 0] S128x256
  bcast_S200000x1_S200000x256_0_1 : S200000x1.BroadcastsInDim S200000x256 (![0, 1] : Fin 2 → Fin S200000x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  reducesTo_S200000x256_S200000_d1 : S200000x256.ReducesTo [1] S200000
  dot_S200000x128_S128x256_S200000x256_1_0_0_1_n_n_wf : DotDims.WF S200000x128 S128x256 S200000x256 [1] [0] [0] [1] [] []

variable [Facts₀]

def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf

class Facts : Prop extends Facts₀ where

variable [Facts]
-- ==== Proof.SoftAssign.lean ====
/-
  The soft assignment of a sample row to 256 centres, as one function on the extended reals.

  For a row r of 128 numbers and a centre c_j the squared distance is spelt by the expansion
  |r|^2 + |c_j|^2 - 2 (r . c_j), clamped below at 0; the similarity is 1 / (1 + d / 1), and the assignment of r to
  centre j is that similarity divided by the sum of the row's 256 similarities.  Every operation is the exact one of
  the extended reals, and the float literals 0.0, 1.0 and 2.0 are kept as their words: both programs spell the same
  words in the same places, so they are never evaluated, except where one program has an extra neutral operation
  (a power with exponent one, a sum started from zero).
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-- The word of the float 1.0 denotes the real one. -/
theorem one_word : Ideal.ofBits .f32 0x3F800000#32 = 1 := IdealRules.sign_bit.ideal_onePat .f32

/-- Raising to the power one changes nothing, at the infinities too: below the reals the power is the base by
    definition, above them a positive exponent keeps the infinity, and on the reals it is the real power's law. -/
theorem pow_one_word (x : EReal) : Ideal.pow x (Ideal.ofBits .f32 0x3F800000#32) = x := by
  rw [one_word]
  induction x using EReal.rec with
  | bot => rfl
  | top => show (if (0 : EReal) < 1 then (⊤ : EReal) else if (1 : EReal) = 0 then 1 else 0) = ⊤; rw [if_pos zero_lt_one]
  | coe r => show ((Real.rpow r 1 : ℝ) : EReal) = (r : EReal); exact congrArg _ (Real.rpow_one r)

/-- A sum that starts from the word of 0.0 is the sum. -/
theorem zero_word_add (x : EReal) : Ideal.ofBits .f32 0x00000000#32 + x = x := by
  rw [Ideal.ofBits_zero_f32, zero_add]

/-- The squared length of a row. -/
def sqLen (r : Fin 128 → EReal) : EReal := ∑ k : Fin 128, r k * r k

/-- The inner product of two rows. -/
def inner (r s : Fin 128 → EReal) : EReal := ∑ k : Fin 128, r k * s k

/-- The similarity from the three sums: 1 / (1 + max (|r|^2 + |c|^2 - 2 (r . c)) 0 / 1). -/
def sim (rr cc rc : EReal) : EReal :=
  Ideal.div (Ideal.ofBits .f32 0x3F800000#32)
    (Ideal.ofBits .f32 0x3F800000#32
      + Ideal.div (max (rr + cc - Ideal.ofBits .f32 0x40000000#32 * rc) (Ideal.ofBits .f32 0x00000000#32))
          (Ideal.ofBits .f32 0x3F800000#32))

/-- Row `j` of the table of centres. -/
def centre (c : (⟨2, ![256, 128]⟩ : Shape).Idx → EReal) (j : Fin 256) : Fin 128 → EReal := fun k => c (ix2 j k)

/-- The similarity of the row `r` to centre `j`. -/
def simTo (r : Fin 128 → EReal) (c : (⟨2, ![256, 128]⟩ : Shape).Idx → EReal) (j : Fin 256) : EReal :=
  sim (sqLen r) (sqLen (centre c j)) (inner r (centre c j))

/-- The assignment of the row `r` to centre `j`: its similarity over the sum of the row's similarities. -/
def assign (r : Fin 128 → EReal) (c : (⟨2, ![256, 128]⟩ : Shape).Idx → EReal) (j : Fin 256) : EReal :=
  Ideal.div (simTo r c j) (∑ l : Fin 256, simTo r c l)

/-- Row `p` of an array of `n` rows. -/
def row {n : Nat} (x : (⟨2, ![n, 128]⟩ : Shape).Idx → EReal) (p : Fin n) : Fin 128 → EReal := fun k => x (ix2 p k)

/-- The whole table of assignments of the 200000 samples. -/
def table (x : (⟨2, ![200000, 128]⟩ : Shape).Idx → EReal) (c : (⟨2, ![256, 128]⟩ : Shape).Idx → EReal) :
    (⟨2, ![200000, 256]⟩ : Shape).Idx → EReal :=
  fun i => assign (row x (i 0)) c (i 1)

end Cert.SoftAssign

end
-- ==== Proof.RefValue.lean ====
/-
  The reference's result is the table of soft assignments.

  The reference computes, for the sample (p, .) and the centre (j, .): the row's squared length (a sum over the 128
  columns, started from the word 0.0), the centre's squared length likewise, the inner product through a transposed copy
  of the centres, then the similarity 1 / (1 + max (..) 0 / 1), raised to the power 1, and last the quotient by the sum
  over the 256 centres of those powers (again started from 0.0).  Reading each stage at an index and identifying the
  composed index maps with the coordinates (p, k) and (j, k) gives the table's entry, once the power one and the two
  leading zeros are removed.
-/
import proofs.«166558_j57131654972013_2_alg».proof.Proof.Gen.ReferenceIdeal.Read
import proofs.«166558_j57131654972013_2_alg».proof.Proof.SoftAssign

noncomputable section

namespace Cert.ReferenceIdeal.RefValue

open Cert.ReferenceIdeal Cert.ReferenceIdeal.Read Idealize.ShloMosaic Idealize.ShloMosaic.ValueIdx Cert.SoftAssign

/-- The stage before the normalisation, at (p, j): the similarity of sample row `p` to centre `j` (the power one
    removed). -/
theorem similarity_stage (x0 : (⟨S200000x128, .f32⟩ : BufTy).Contents (Elt Ideal))
    (x1 : (⟨S256x128, .f32⟩ : BufTy).Contents (Elt Ideal)) (p : Fin 200000) (q : Fin 256) :
    val_main_v23 (F := Ideal) x0 x1 (ix2 p q) = simTo (row x0 p) x1 q := by
  have e1 : ∀ k : Fin 128, lidx_main_v7 (ix2 p q) k = ix2 p k := fun k => funext fun a => by
    match a with | ⟨0, _⟩ => rfl | ⟨1, _⟩ => rfl
  have e2 : ∀ k : Fin 128, idx_main_v6 (ridx_main_v7 (ix2 p q) k) = ix2 q k := fun k => funext fun a => by
    match a with | ⟨0, _⟩ => rfl | ⟨1, _⟩ => rfl
  have e3 : ∀ k : Fin 128, idx_main_v1 (idx_main_v2 (idx_main_v8 (ix2 p q))) k = ix2 p k := fun k => funext fun a => by
    match a with | ⟨0, _⟩ => rfl | ⟨1, _⟩ => rfl
  have e4 : ∀ k : Fin 128, idx_main_v4 (idx_main_v5 (idx_main_v9 (ix2 p q))) k = ix2 q k := fun k => funext fun a => by
    match a with | ⟨0, _⟩ => rfl | ⟨1, _⟩ => rfl
  simp only [val_main_v23_apply, val_main_v22_apply, val_main_cst_6_apply, val_main_v21_apply, val_main_v20_apply,
    val_main_cst_5_apply, val_main_v19_apply, val_main_v18_apply, val_main_cst_4_apply, val_main_v17_apply,
    val_main_v16_apply, val_main_cst_3_apply, val_main_v15_apply, val_main_v14_apply, val_main_cst_2_apply,
    val_main_v13_apply, val_main_v12_apply, val_main_v11_apply, val_main_cst_1_apply, val_main_v10_apply,
    val_main_v9_apply, val_main_v5_apply, val_main_v4_apply, val_main_cst_0_apply, val_main_v3_apply,
    val_main_v8_apply, val_main_v2_apply, val_main_v1_apply, val_main_cst_apply, val_main_v0_apply,
    val_main_v7_apply, val_main_v6_apply, e1, e2, e3, e4,
    Ideal.ofBits_def, Ideal.hostPowf_def, Ideal.hostDivf_def, Ideal.addf_def, Ideal.subf_def, Ideal.mulf_def,
    Ideal.maximumf_def, pow_one_word, zero_word_add]
  rfl

/-- The reference's result: the table of assignments of its two arguments. -/
theorem result_eq (x0 : (⟨S200000x128, .f32⟩ : BufTy).Contents (Elt Ideal))
    (x1 : (⟨S256x128, .f32⟩ : BufTy).Contents (Elt Ideal)) :
    val_main_v27 (F := Ideal) x0 x1 = table x0 x1 := by
  funext i
  obtain ⟨p, q, rfl⟩ : ∃ (p : Fin 200000) (q : Fin 256), i = ix2 p q := ⟨i 0, i 1, eq_ix2 i⟩
  have e5 : ∀ k : Fin 256, idx_main_v24 (idx_main_v25 (idx_main_v26 (ix2 p q))) k = ix2 p k := fun k => funext fun a => by
    match a with | ⟨0, _⟩ => rfl | ⟨1, _⟩ => rfl
  simp only [val_main_v27_apply, val_main_v26_apply, val_main_v25_apply, val_main_v24_apply, val_main_cst_7_apply,
    e5, similarity_stage, Ideal.ofBits_def, Ideal.hostDivf_def, zero_word_add]
  rfl

end Cert.ReferenceIdeal.RefValue

end
-- ==== Proof.Layout.lean ====
/-
  Three readings at an index written by its coordinates, for the shapes a row-wise reduction with kept dimensions goes
  through: a vector of `a` row values cast to the column shape [a, 1]; that column broadcast along the rows of an
  [a, b] array (every entry of row `p` is the row's value); and a sum along the second axis of an [a, n] array, which
  at row `p` is the sum over `k` of the entries (p, k).
-/
import Idealize.ShloMosaic.Lib.Pipeline.Value
import Idealize.ShloMosaic.Lib.ValueIdx
import Idealize.ShloMosaic.PureOps.Ideal.Laws

noncomputable section

namespace Cert.SoftAssign

open Idealize.ShloMosaic Idealize.ShloMosaic.ValueIdx

variable {α : Type}

/-- A vector of `a` values cast to the column shape [a, 1] holds, at (i, u), the value `i`: both indices have the same
    position in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] holds, at (p, c), the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: the keep-dimensions column of a vector of row values, broadcast along the rows. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A sum along the second axis of an [a, n] array of extended reals, whose accumulator starts at the word of 0.0 (the
    neutral element), is at row `p` the sum over `k` of the entries (p, k). -/
theorem rowSum_apply {a n : ℕ} (src : FVec Ideal ⟨2, ![a, n]⟩ .f32) (h : (⟨2, ![a, n]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin n, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

end Cert.SoftAssign

end
-- ==== Proof.Payload.lean ====
/-
  One block of the kernel's result, entry by entry.

  At a grid point the body holds a block `x` of 8000 sample rows, the whole table `c` of 256 centres and a row `s` of
  256 numbers that the launching program computed beforehand (the centres' squared lengths).  Its one stored value is
  read here at the entry (p, q) of the block: the row sums with kept dimensions are read through their column shape,
  the matrix product (of the operands rounded to a shorter format, which is no change on the extended reals) as the sum
  over the 128 columns of x (p, k) · c (q, k), and the rest is pointwise.  The entry is the assignment of row `p` of the
  block to centre `q`, provided `s` holds the centres' squared lengths.
-/
import proofs.«166558_j57131654972013_2_alg».proof.KernelIdeal
import proofs.«166558_j57131654972013_2_alg».proof.Proof.Gen.KernelIdeal
import proofs.«166558_j57131654972013_2_alg».proof.Proof.Gen.KernelIdeal.Skeleton
import proofs.«166558_j57131654972013_2_alg».proof.Proof.SoftAssign
import proofs.«166558_j57131654972013_2_alg».proof.Proof.Layout
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.SoftAssign

/-- The left operand's index for the output entry `j` has `j`'s row, whatever the contracted coordinate. -/
theorem lhs_row (j : S8000x256.Idx) (kk : dot_S8000x128_S256x128_S8000x256_1_1_0_0_n_n.contr.Idx) :
    (dot_S8000x128_S256x128_S8000x256_1_1_0_0_n_n.lhsIdx j kk 0).val = (j 0).val := by
  unfold DotDims.lhsIdx
  rw [dif_neg (show ¬(0 : Fin S8000x128.rank) ∈ dot_S8000x128_S256x128_S8000x256_1_1_0_0_n_n.lhsBatch by decide), dif_pos (show (0 : Fin S8000x128.rank) ∈ dot_S8000x128_S256x128_S8000x256_1_1_0_0_n_n.lhsNonContracting by decide)]
  rfl

/-- The right operand's index for the output entry `j` has `j`'s column as its row: the centres are contracted along
    their own second axis. -/
theorem rhs_row (j : S8000x256.Idx) (kk : dot_S8000x128_S256x128_S8000x256_1_1_0_0_n_n.contr.Idx) :
    (dot_S8000x128_S256x128_S8000x256_1_1_0_0_n_n.rhsIdx j kk 0).val = (j 1).val := by
  unfold DotDims.rhsIdx
  rw [dif_neg (show ¬(0 : Fin S256x128.rank) ∈ dot_S8000x128_S256x128_S8000x256_1_1_0_0_n_n.rhsBatch by decide), dif_pos (show (0 : Fin S256x128.rank) ∈ dot_S8000x128_S256x128_S8000x256_1_1_0_0_n_n.rhsNonContracting by decide)]
  rfl

/-- The body's matrix product into a zero accumulator, at (p, q): both operands are contracted along their second
    axis, so the entry is the inner product of row `p` of the left operand with row `q` of the right one. -/
theorem cross_apply (l : FVec Ideal S8000x128 .bf16) (r : FVec Ideal S256x128 .bf16) (p : Fin 8000) (q : Fin 256) :
    matmul dot_S8000x128_S256x128_S8000x256_1_1_0_0_n_n none l r (constant S8000x256 .f32 0x00000000#32) (ix2 p q)
      = ∑ k : Fin 128, l (ix2 p k) * r (ix2 q k) := by
  simp only [matmul]
  rw [Ideal.matmul_constant_zero_apply, ← Equiv.sum_comp (contrEquiv1 dot_S8000x128_S256x128_S8000x256_1_1_0_0_n_n 128 rfl rfl).symm]
  refine Finset.sum_congr rfl fun k _ => ?_
  have hk := contrEquiv1_symm_val dot_S8000x128_S256x128_S8000x256_1_1_0_0_n_n 128 rfl rfl k
  have el : dot_S8000x128_S256x128_S8000x256_1_1_0_0_n_n.lhsIdx (ix2 p q) ((contrEquiv1 dot_S8000x128_S256x128_S8000x256_1_1_0_0_n_n 128 rfl rfl).symm k) = ix2 p k := funext fun a => Fin.ext (by
    match a with
    | ⟨0, _⟩ => exact lhs_row _ _
    | ⟨1, _⟩ => exact (dot_S8000x128_S256x128_S8000x256_1_1_0_0_n_n.lhsIdx_val_of_single rfl _ _).trans hk)
  have er : dot_S8000x128_S256x128_S8000x256_1_1_0_0_n_n.rhsIdx (ix2 p q) ((contrEquiv1 dot_S8000x128_S256x128_S8000x256_1_1_0_0_n_n 128 rfl rfl).symm k) = ix2 q k := funext fun a => Fin.ext (by
    match a with
    | ⟨0, _⟩ => exact rhs_row _ _
    | ⟨1, _⟩ => exact (dot_S8000x128_S256x128_S8000x256_1_1_0_0_n_n.rhsIdx_val_of_single rfl _ _).trans hk)
  rw [el, er]

/-- THE ENTRY (p, q) of the block the body stores: the assignment of the block's row `p` to centre `q`. -/
theorem payload_apply (x : Vec Ideal S8000x128 .f32) (c : Vec Ideal S256x128 .f32) (s : Vec Ideal S1x256 .f32)
    (hs : ∀ j : Fin 256, s (ix2 (0 : Fin 1) j) = sqLen (centre c j)) (p : Fin 8000) (q : Fin 256) :
    k0_pay1 (F := Ideal) x c s (ix2 p q) = assign (row x p) c q := by
  unfold k0_pay1
  -- the quotient, its numerator and the column of row sums it is divided by
  simp only [divf_apply, addf_apply, subf_apply, mulf_apply, maximumf_apply, broadcast_apply, truncf_apply,
    column_apply, broadcastTo_1b_ab_apply, shapeCast_self, cross_apply, hs]
  -- the sum of the row's 256 similarities, then each of them at (p, k)
  rw [rowSum_apply (a := 8000) (n := 256)]
  simp only [divf_apply, addf_apply, subf_apply, mulf_apply, maximumf_apply, broadcast_apply, truncf_apply,
    column_apply, broadcastTo_1b_ab_apply, shapeCast_self, cross_apply, hs]
  -- the row's squared length, the same in every term
  rw [rowSum_apply (a := 8000) (n := 128)]
  simp only [mulf_apply]
  rfl

end Cert.KernelIdeal.Payload

end
-- ==== Proof.Blocks.lean ====
/-
  From the blocks to the whole array.

  The grid has 25 points; point `t` reads rows 8000 t … 8000 t + 7999 of the samples, the whole table of centres and the
  whole row of the centres' squared lengths (which the launching program computes before the region: a sum over the
  128 columns of the squares, laid out as one row of 256), and writes rows 8000 t … 8000 t + 7999 of the result.  What
  point `t` writes is therefore the corresponding block of the table of assignments, the 25 blocks cover the 200000
  rows, and the result array ends holding the table.
-/
import proofs.«166558_j57131654972013_2_alg».proof.Proof.Gen.KernelIdeal.Value
import proofs.«166558_j57131654972013_2_alg».proof.Proof.Payload
import proofs.«166558_j57131654972013_2_alg».proof.Proof.SoftAssign
import Idealize.ShloMosaic.Lib.Pipeline.Value
import Idealize.ShloMosaic.Lib.StableHlo.Run
import Idealize.ShloMosaic.Lib.ValueLayout
import Idealize.ShloMosaic.Lib.ValueIdx
import Idealize.ShloMosaic.Lib.Tactic
import Idealize.ShloMosaic.PureOps.Ideal.Laws

noncomputable section

namespace Cert.KernelIdeal.Blocks

open Cert.KernelIdeal Cert.KernelIdeal.Gen Cert.KernelIdeal.Payload Idealize.ShloMosaic Idealize.ShloMosaic.TcCoe
open Idealize.SL.Sem Idealize.ShloMosaic.StableHlo Idealize.ShloMosaic.ValueIdx Cert.SoftAssign
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the samples and the result move one block of rows per point, the centres and the
    row of squared lengths stay put. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The row of squared lengths the region finds -/

/-- What the launching program leaves in the third operand's array: the row sums of the squared centres, as a column,
    transposed to a row. -/
theorem sqRow_eq (c : Dev nD) :
    (V m c main_v3 : S1x256.Idx → EReal)
      = transpose S1x256 [1, 0] (broadcastInDim S256x1 ![0] bcast_S256_S256x1_0
          (Host.reduceAdd (F := Ideal) (mulf (m ((c : Thread nD τ).loc main_arg1)) (m ((c : Thread nD τ).loc main_arg1)))
            (constant (F := Ideal) S_ .f32 0x00000000#32) reducesTo_S256x128_S256_d1 h_S_))
          transposes_S256x1_S1x256_1_0 := by
  dsimp only [Gen.V, Gen.hostOps0]
  after_results

/-- A row sum on the host, started from the word 0.0, of the squares of an array of 256 rows: at row `j` the squared
    length of that row. -/
theorem hostSq_apply (y : (⟨S256x128, .f32⟩ : BufTy).Contents (Elt Ideal)) (j : Fin 256) :
    Host.reduceAdd (F := Ideal) (mulf y y) (constant (F := Ideal) S_ .f32 0x00000000#32) reducesTo_S256x128_S256_d1 h_S_ (ix1 j)
      = sqLen (centre y j) := by
  simp only [Host.reduceAdd, Ideal.hostReduceAdd_def]
  rw [Ideal.hostReduceAdd_single reducesTo_S256x128_S256_d1 (by decide)]
  refine (zero_word_add _).trans (Finset.sum_congr rfl fun k _ => ?_)
  show y _ * y _ = y (ix2 j k) * y (ix2 j k)
  have e : (show S256x128.Reduces [1] S256 by decide).lift (ix1 j) k = ix2 j k := funext fun a => Fin.ext (by
    match a with | ⟨0, _⟩ => rfl | ⟨1, _⟩ => rfl)
  rw [e]
  rfl

/-- So the row the region finds holds, at column `j`, the squared length of centre `j`. -/
theorem sqRow_apply (c : Dev nD) (j : Fin 256) :
    (V m c main_v3 : S1x256.Idx → EReal) (ix2 (0 : Fin 1) j) = sqLen (centre (m ((c : Thread nD τ).loc main_arg1)) j) := by
  rw [sqRow_eq]
  refine (transpose_ix2_apply _ transposes_S256x1_S1x256_1_0 (0 : Fin 1) j).trans ?_
  refine (broadcastInDim_apply _ bcast_S256_S256x1_0 _ (ix2 j (0 : Fin 1)) (ix1 j) (fun a => match a with
    | ⟨0, _⟩ => by show j.val = if (256 : Nat) = 1 then 0 else j.val; rw [if_neg (by decide)])).trans ?_
  exact hostSq_apply _ j

/-! ## The input blocks at a point -/

/-- The samples' block at point `t`, entry (p, k), is the sample entry (8000 t + p, k). -/
theorem sampleBlock_apply (c : Dev nD) (t : Fin cfg0.N) (p : Fin 8000) (k : Fin 128) (P : Fin 200000)
    (hP : P.val = 8000 * t.val + p.val) :
    (iblk m c 0 t : Vec Ideal S8000x128 .f32) (ix2 p k)
      = (m ((c : Thread nD τ).loc main_arg0) : S200000x128.Idx → EReal) (ix2 P k) := by
  obtain ⟨e0, e1, -⟩ := index_facts t
  unfold iblk
  rw [View.read_apply]
  show V m c main_arg0 _ = _
  rw [V_main_arg0]
  refine congrArg (m ((c : Thread nD τ).loc main_arg0) : S200000x128.Idx → EReal) (funext fun a => Fin.ext ?_)
  match a with
  | ⟨0, _⟩ => show win0_0.index t (0 : Fin 2) * 8000 + 1 * p.val = P.val; rw [e0, hP]; omega
  | ⟨1, _⟩ => show win0_0.index t (1 : Fin 2) * 128 + 1 * k.val = k.val; rw [e1]; omega

/-- The centres' block at every point is the whole table of centres. -/
theorem centreBlock_eq (c : Dev nD) (t : Fin cfg0.N) :
    (iblk m c 1 t : Vec Ideal S256x128 .f32) = (m ((c : Thread nD τ).loc main_arg1) : S256x128.Idx → EReal) := by
  obtain ⟨-, -, e0, e1, -⟩ := index_facts t
  funext y
  unfold iblk
  rw [View.read_apply]
  show V m c main_arg1 _ = _
  rw [V_main_arg1]
  refine congrArg (m ((c : Thread nD τ).loc main_arg1) : S256x128.Idx → EReal) (funext fun a => Fin.ext ?_)
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The third operand's block at every point is the whole row the launching program left, so at column `j` it holds
    the squared length of centre `j`. -/
theorem sqBlock_apply (c : Dev nD) (t : Fin cfg0.N) (j : Fin 256) :
    (iblk m c 2 t : Vec Ideal S1x256 .f32) (ix2 (0 : Fin 1) j) = sqLen (centre (m ((c : Thread nD τ).loc main_arg1)) j) := by
  obtain ⟨-, -, -, -, e0, e1, -⟩ := index_facts t
  refine Eq.trans ?_ (sqRow_apply m c j)
  unfold iblk
  rw [View.read_apply]
  show V m c main_v3 _ = _
  refine congrArg (V m c main_v3 : S1x256.Idx → EReal) (funext fun a => Fin.ext ?_)
  match a with
  | ⟨0, _⟩ => show win0_2.index t (0 : Fin 2) * 1 + 1 * 0 = 0; rw [e0]
  | ⟨1, _⟩ => show win0_2.index t (1 : Fin 2) * 256 + 1 * j.val = j.val; rw [e1]; omega

/-! ## What a point writes back, the cover, the array -/

/-- WHAT POINT `t` WRITES BACK is block `t` of the table of assignments of the two arguments. -/
theorem flushed_eq (c : Dev nD) (t : Fin cfg0.N) :
    (dats m 0 c).flushed 3 t = ((cfg0.win 3).blk t).view.read (Elt Ideal)
      (table (m ((c : Thread nD τ).loc main_arg0)) (m ((c : Thread nD τ).loc main_arg1))) := by
  rw [Value.flushed3]
  unfold out0_3
  rw [View.canon_unit_zero zero_offsets]
  simp only [View.ld_unit_zero (S := S8000x128) zero_offsets, View.ld_unit_zero (S := S256x128) zero_offsets,
    View.ld_unit_zero (S := S1x256) zero_offsets]
  obtain ⟨-, -, -, -, -, -, e0, e1⟩ := index_facts t
  have hN : t.val < 25 := by have h := t.isLt; have e : cfg0.N = 25 := N_0; omega
  funext j
  have h0 : (j 0).val < 8000 := (j 0).isLt
  have h1 : (j 1).val < 256 := (j 1).isLt
  have hx : (cfg0.win 3).xinj (grid0.coords t) j = ix2 (⟨(j 0).val, h0⟩ : Fin 8000) (⟨(j 1).val, h1⟩ : Fin 256) :=
    funext fun a => by match a with | ⟨0, _⟩ => rfl | ⟨1, _⟩ => rfl
  have hemb : ((cfg0.win 3).blk t).view.emb j
      = ix2 (⟨8000 * t.val + (j 0).val, by omega⟩ : Fin 200000) (⟨(j 1).val, h1⟩ : Fin 256) :=
    funext fun a => Fin.ext (by
      match a with
      | ⟨0, _⟩ => show win0_3.index t (0 : Fin 2) * 8000 + 1 * (j 0).val = 8000 * t.val + (j 0).val; rw [e0]; omega
      | ⟨1, _⟩ => show win0_3.index t (1 : Fin 2) * 256 + 1 * (j 1).val = (j 1).val; rw [e1]; omega)
  rw [View.read_apply, hemb]
  show k0_pay1 (iblk m c 0 t) (iblk m c 1 t) (iblk m c 2 t) ((cfg0.win 3).xinj (grid0.coords t) j) = _
  rw [hx, payload_apply (iblk m c 0 t) (iblk m c 1 t) (iblk m c 2 t)
    (fun l => (sqBlock_apply m c t l).trans (by rw [centreBlock_eq m c t])) ⟨(j 0).val, h0⟩ ⟨(j 1).val, h1⟩]
  show assign _ _ _ = assign _ _ _
  rw [centreBlock_eq m c t]
  refine congrArg (fun r => assign r (m ((c : Thread nD τ).loc main_arg1)) (⟨(j 1).val, h1⟩ : Fin 256)) (funext fun k => ?_)
  exact sampleBlock_apply m c t ⟨(j 0).val, h0⟩ k ⟨8000 * t.val + (j 0).val, by omega⟩ rfl

/-- An index of the result array is in point `t`'s block iff each coordinate is in the block's range on its axis. -/
theorem mem_blk (t : Fin cfg0.N) (i : S200000x256.Idx) :
    i ∈ ((cfg0.win 3).blk t).view.set ↔ ∀ a : Fin 2, win0_3.index t a * S8000x256.size a ≤ (i a).val ∧ (i a).val < win0_3.index t a * S8000x256.size a + S8000x256.size a := by
  show i ∈ ((View.whole main_v4).slice (win0_3.rect t)).set ↔ _
  rw [View.set_slice_whole, Rect.mem_set_unit]
  exact Iff.rfl

/-- Every row of the result lies in the block of the point that is the row number divided by 8000. -/
theorem cover (i : S200000x256.Idx) :
    ∃ t : Fin cfg0.N, (cfg0.win 3).flush t = true ∧ i ∈ ((cfg0.win 3).blk t).view.set := by
  have hi0 : (i 0).val < 200000 := (i 0).isLt
  have hi1 : (i 1).val < 256 := (i 1).isLt
  have hN : cfg0.N = 25 := N_0
  refine ⟨⟨(i 0).val / 8000, by rw [hN]; omega⟩, flush0_3 _, ?_⟩
  obtain ⟨-, -, -, -, -, -, e0, e1⟩ := index_facts ⟨(i 0).val / 8000, by rw [hN]; omega⟩
  rw [mem_blk]
  intro a
  match a with
  | ⟨0, _⟩ =>
    show win0_3.index _ (0 : Fin 2) * 8000 ≤ (i 0).val ∧ (i 0).val < win0_3.index _ (0 : Fin 2) * 8000 + 8000
    rw [e0]; show (i 0).val / 8000 * 8000 ≤ (i 0).val ∧ (i 0).val < (i 0).val / 8000 * 8000 + 8000; omega
  | ⟨1, _⟩ =>
    show win0_3.index _ (1 : Fin 2) * 256 ≤ (i 1).val ∧ (i 1).val < win0_3.index _ (1 : Fin 2) * 256 + 256
    rw [e1]; omega

/-- THE RESULT ARRAY after the run is the table of assignments of the two arguments. -/
theorem final (c : Dev nD) :
    (dats m 0 c).arrAt 3 cfg0.N = table (m ((c : Thread nD τ).loc main_arg0)) (m ((c : Thread nD τ).loc main_arg1)) :=
  (dats m 0 c).arrAt_eq_of_cover 3 (table (m ((c : Thread nD τ).loc main_arg0)) (m ((c : Thread nD τ).loc main_arg1)))
    (fun t _ => flushed_eq m c t) cover

/-- The run, read: the result array at the table, the arguments unchanged. -/
theorem run : θ_run defs (onTc (τ := τ) (main (F := Ideal))) ⟨m, fun _ => 0, ρ⟩ fun r => ∀ c : Dev nD,
      r.2.mem ((c : Thread nD τ).loc main_v4) = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  A soft assignment of 200000 samples to 256 centres: the kernel against its reference, on the extended reals.

  For a sample row r (128 numbers) and a centre c_j, the squared distance is written by the expansion
  |r|^2 + |c_j|^2 - 2 (r . c_j) and clamped below at 0; the similarity is 1 / (1 + d / 1); the result entry (r, j) is
  the similarity divided by the sum of the row's 256 similarities (Proof/SoftAssign.lean: `table`).

  The kernel computes this 8000 rows at a time over a grid of 25 points, with the centres' squared lengths computed once
  beforehand and handed in as a row; its matrix product takes the operands rounded to a shorter float format, which on the
  extended reals is no change.  Each stored entry is read in Proof/Payload.lean, the 25 blocks are put together in
  Proof/Blocks.lean.  The reference computes the same table in one piece, and additionally raises each similarity to the
  power one, which changes no extended real (Proof/RefValue.lean).  No law of arithmetic beyond that is used: the two
  sides are the same expression term by term, so the finiteness of the inputs is never opened.

  The frames of the two kernel programs are the generated frame theorems; the reference's frame is its run with the
  result dropped.  The idealized kernel is the kernel's own text read on the extended reals (no rewrite), so there is nothing to
  preserve.
-/
import proofs.«166558_j57131654972013_2_alg».proof.Defs
import proofs.«166558_j57131654972013_2_alg».proof.Proof.Gen.Kernel
import proofs.«166558_j57131654972013_2_alg».proof.Proof.Gen.Kernel.Frame
import proofs.«166558_j57131654972013_2_alg».proof.Proof.Gen.KernelIdeal
import proofs.«166558_j57131654972013_2_alg».proof.Proof.Gen.KernelIdeal.Frame
import proofs.«166558_j57131654972013_2_alg».proof.Proof.Gen.KernelIdeal.Value
import proofs.«166558_j57131654972013_2_alg».proof.Proof.Gen.ReferenceIdeal
import proofs.«166558_j57131654972013_2_alg».proof.Proof.Gen.ReferenceIdeal.Run
import proofs.«166558_j57131654972013_2_alg».proof.Proof.Gen.ReferenceIdeal.Read
import proofs.«166558_j57131654972013_2_alg».proof.Proof.Gen.Pre_finite_inputs
import proofs.«166558_j57131654972013_2_alg».proof.Proof.SoftAssign
import proofs.«166558_j57131654972013_2_alg».proof.Proof.RefValue
import proofs.«166558_j57131654972013_2_alg».proof.Proof.Blocks

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, run from memories that agree on the samples and the centres, end with the table of assignments in
    their result arrays. -/
theorem algebraic : Cert.algebraic_KernelIdeal_ReferenceIdeal := by
  intro m ρ m' ρ' _ hagree
  refine ⟨fun c => Cert.SoftAssign.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
